-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x32x32 : Shape := ⟨4, ![32, 1024, 32, 32]⟩
abbrev S32x1024x1024 : Shape := ⟨3, ![32, 1024, 1024]⟩
abbrev S_ : Shape := ⟨0, ![]⟩

class Facts : Prop where
  bcast_S_S32x1024x32x32 : S_.BroadcastsInDim S32x1024x32x32 (![] : Fin 0 → Fin S32x1024x32x32.rank)
  reducesTo_S32x1024x32x32_S_d0_1_2_3 : S32x1024x32x32.ReducesTo [0, 1, 2, 3] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1024x32x32 .f32) (main_arg1 : FVec F S32x1024x1024 .f32) (main_arg2 : FVec F S32x1024x1024 .f32) : IVec S_ 1 :=
  let main_v0 : FVec F S32x1024x32x32 .f32 := Host.absf main_arg0
  let main_cst : FVec F S_ .f32 := constant S_ .f32 0x7F800000#32
  let main_v1 : FVec F S32x1024x32x32 .f32 := broadcastInDim S32x1024x32x32 ![] bcast_S_S32x1024x32x32 main_cst
  let main_v2 : IVec S32x1024x32x32 1 := cmpf .olt main_v0 main_v1
  let main_c : IVec S_ 1 := constantI S_ 1 1#1
  let main_v3 : IVec S_ 1 := (fun x v => Host.reduce IntOp.andi x v reducesTo_S32x1024x32x32_S_d0_1_2_3 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  main_v13
-- ==== Kernel.lean ====
abbrev S32x1024x32x32 : Shape := ⟨4, ![32, 1024, 32, 32]⟩
abbrev S32x1024x1024 : Shape := ⟨3, ![32, 1024, 1024]⟩
abbrev S1x1024x256 : Shape := ⟨3, ![1, 1024, 256]⟩
abbrev S1x1024x1024 : Shape := ⟨3, ![1, 1024, 1024]⟩
abbrev S1024x1024 : Shape := ⟨2, ![1024, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S32x1024x32x32, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .hbm, ⟨4, _⟩ => ⟨S32x1024x1024, .f32⟩
  | .hbm, ⟨5, _⟩ => ⟨S32x1024x1024, .f32⟩
  | .hbm, ⟨6, _⟩ => ⟨S32x1024x32x32, .f32⟩
  | .hbm, ⟨7, _⟩ => ⟨S32x1024x32x32, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1024x1024, .bf16⟩
  | .local _ .vmem, ⟨11, _⟩ => ⟨S1024x1024, .bf16⟩
  | _, _ => ⟨S32x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x1024x32x32_S32x1024x1024 : S32x1024x32x32.ShapeCasts S32x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S256x1024_S256 : S256x1024.Reduces [1] S256
  shapeCasts_S256_S256x1 : S256.ShapeCasts S256x1
  broadcasts_S256x1_S256x1024 : S256x1.Broadcasts S256x1024
  shapeCasts_S1024x256_S1x1024x256 : S1024x256.ShapeCasts S1x1024x256
  transposes_S256x1024_p1_0_S1024x256 : S256x1024.Transposes [1, 0] S1024x256
  shapeCasts_S32x1024x1024_S32x1024x32x32 : S32x1024x1024.ShapeCasts S32x1024x32x32
  dot_S1024x256_S1024x1024_S256x1024_0_0_1_1_n_n_wf : DotDims.WF S1024x256 S1024x1024 S256x1024 [0] [0] [1] [1] [] []
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x1024.size a
  hwx0_0 : ∀ i : grid0.Coords, EltTy.bits .f32 = 32 ∨ (Rect.block (s := S32x1024x1024) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S32x1024x1024.size a
  hwx0_3 : ∀ i : grid0.Coords, EltTy.bits .f32 = 32 ∨ (Rect.block (s := S32x1024x1024) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x1024.size a
  hwx0_4 : ∀ i : grid0.Coords, EltTy.bits .f32 = 32 ∨ (Rect.block (s := S32x1024x1024) S1x1024x256.size (cc0_transform_4 i) (hinb0_4 i)).WholeWords (EltTy.packing .f32)

variable [Facts₀]

def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x32x32 : Shape := ⟨4, ![32, 1024, 32, 32]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x32x32, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .hbm, ⟨4, _⟩ => ⟨S32x1024x1024, .f32⟩
  | .hbm, ⟨5, _⟩ => ⟨S_, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024x1, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S32x1024x32x32, .f32⟩
  | .hbm, ⟨21, _⟩ => ⟨S32x1024x1024, .f32⟩
  | .hbm, ⟨22, _⟩ => ⟨S32x1024x32x32, .f32⟩
  | _, _ => ⟨S32x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  shapeCasts_S32x1024x32x32_S32x1024x1024 : S32x1024x32x32.ShapeCasts S32x1024x1024
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  shapeCasts_S32x1024x1024_S32x1024x32x32 : S32x1024x1024.ShapeCasts S32x1024x32x32
  transposes_S32x1024x1024_S32x1024x1024_0_2_1 : S32x1024x1024.Transposes [0, 2, 1] S32x1024x1024
  dot_S32x1024x1024_S32x1024x1024_S32x1024x1024_1_1_2_2_0_0_wf : DotDims.WF S32x1024x1024 S32x1024x1024 S32x1024x1024 [1] [1] [2] [2] [0] [0]
  dot_S32x1024x1024_S32x1024x1024_S32x1024x1024_2_2_1_1_0_0_wf : DotDims.WF S32x1024x1024 S32x1024x1024 S32x1024x1024 [2] [2] [1] [1] [0] [0]

variable [Facts₀]

def dot_S32x1024x1024_S32x1024x1024_S32x1024x1024_1_1_2_2_0_0 : DotDims S32x1024x1024 S32x1024x1024 S32x1024x1024 where
  lhsContracting := [1]
  rhsContracting := [1]
  lhsNonContracting := [2]
  rhsNonContracting := [2]
  lhsBatch := [0]
  rhsBatch := [0]
  wf := dot_S32x1024x1024_S32x1024x1024_S32x1024x1024_1_1_2_2_0_0_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf

class Facts : Prop extends Facts₀ where

variable [Facts]
-- ==== Proof.Pieces.lean ====
/-
  What one grid point leaves behind, as values. At the first query tile of a batch the body refills the two caches from
  the key and value blocks (rounded to the narrow format) and then computes from the refilled caches; at the other
  tiles it computes from the caches as the point before left them and leaves them alone. In both cases each of the two
  output blocks is written by one store that covers it, so its contents are that store's value: the context from the
  query block and the two caches, the transposed weights from the query block and the key cache.
-/
import proofs.«148764_j1580547967055_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first tile of a batch: the caches are refilled -/

/-- The key cache after a refilling point holds the key block, narrowed. -/
theorem keyCache_A (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i) (x0 : Vec F S1x1024x256 .f32) (x1 : Vec F S1x1024x1024 .f32) (x2 : Vec F S1x1024x1024 .f32) :
    sout0_A_0 c i arg2 harg2 arg3 harg3 arg4 harg4 arg5 harg5 arg6 harg6 arg7 harg7 arg8 harg8 hc0 x0 x1 x2 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread, View.ld_unit_zero (S := S1x1024x1024) hz3]

/-- The value cache after a refilling point holds the value block, narrowed. -/
theorem valCache_A (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i) (x0 : Vec F S1x1024x256 .f32) (x1 : Vec F S1x1024x1024 .f32) (x2 : Vec F S1x1024x1024 .f32) :
    sout0_A_1 c i arg2 harg2 arg3 harg3 arg4 harg4 arg5 harg5 arg6 harg6 arg7 harg7 arg8 harg8 hc0 x0 x1 x2 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x1024x1024) hz3]

/-- The context block a refilling point writes: computed from the caches it has just refilled. -/
theorem ctxBlock_A (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i) (x0 : Vec F S1x1024x256 .f32) (x1 : Vec F S1x1024x1024 .f32) (x2 : Vec F S1x1024x1024 .f32) :
    out0_A_3 c i arg2 harg2 arg3 harg3 arg4 harg4 arg5 harg5 arg6 harg6 arg7 harg7 arg8 harg8 hc0 x0 x1 x2 = k0_pay4 x0 (k0_pay1 x1) (k0_pay2 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x1024x256) hz3, View.ld_unit_zero (S := S1x1024x1024) hz3,
    View.readCov_unit_zero (S := S1024x1024) _ hz2]

/-- The transposed-weights block a refilling point writes. -/
theorem attnBlock_A (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i) (x0 : Vec F S1x1024x256 .f32) (x1 : Vec F S1x1024x1024 .f32) (x2 : Vec F S1x1024x1024 .f32) :
    out0_A_4 c i arg2 harg2 arg3 harg3 arg4 harg4 arg5 harg5 arg6 harg6 arg7 harg7 arg8 harg8 hc0 x0 x1 x2 = k0_pay5 x0 (k0_pay1 x1) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread,
    View.ld_unit_zero (S := S1x1024x256) hz3, View.ld_unit_zero (S := S1x1024x1024) hz3,
    View.readCov_unit_zero (S := S1024x1024) _ hz2]

/-! ## The other tiles: the caches are kept -/

/-- The context block a later tile writes: computed from the caches as the point before left them. -/
theorem ctxBlock_B (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i) (x0 : Vec F S1x1024x256 .f32) (x1 : Vec F S1x1024x1024 .f32) (x2 : Vec F S1x1024x1024 .f32) (xs0 xs1 : Vec F S1024x1024 .bf16) :
    out0_B_3 c i arg2 harg2 arg3 harg3 arg4 harg4 arg5 harg5 arg6 harg6 arg7 harg7 arg8 harg8 hc0 x0 x1 x2 xs0 xs1 = k0_pay4 x0 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg7.read_unread, harg8.read_unread,
    View.ld_unit_zero (S := S1x1024x256) hz3, View.ld_unit_zero (S := S1024x1024) hz2]

/-- The transposed-weights block a later tile writes. -/
theorem attnBlock_B (c : Dev nD) (i : grid0.Coords) (arg2 : Memref sig .tc .vmem S1x1024x256 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i) (x0 : Vec F S1x1024x256 .f32) (x1 : Vec F S1x1024x1024 .f32) (x2 : Vec F S1x1024x1024 .f32) (xs0 xs1 : Vec F S1024x1024 .bf16) :
    out0_B_4 c i arg2 harg2 arg3 harg3 arg4 harg4 arg5 harg5 arg6 harg6 arg7 harg7 arg8 harg8 hc0 x0 x1 x2 xs0 xs1 = k0_pay5 x0 xs0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg7.read_unread,
    View.ld_unit_zero (S := S1x1024x256) hz3, View.ld_unit_zero (S := S1024x1024) hz2]

end Cert.KernelIdeal.Pieces

end
-- ==== Proof.Softmax.lean ====
/-
  Scaled-dot attention without a scale, stated once on the extended reals.

  For a batch `b`, a query position `q` and a source position `s`, over three arrays of shape [32, 1024, 1024]
  (`T`: the queries laid out [batch, feature, query]; `K`: the keys [batch, feature, source]; `V`: the values
  [batch, channel, source]):

    score b q s = ∑ d, T[b, d, q] · K[b, d, s]
    attn  b q s = exp (score b q s − M) / ∑ s', exp (score b q s' − M),   M = max over s' of score b q s' (from −∞)
    ctx   b v q = ∑ s, V[b, v, s] · attn b q s

  The row softmax is stated for an arbitrary row `w : Fin 1024 → EReal` first (`smax`), so that a row of any
  matrix — a block of the array or the array itself — can be recognized as one.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The common shape of the three operands and of both results before they are re-laid: [32, 1024, 1024]. -/
abbrev Sh3 : Shape := ⟨3, ![32, 1024, 1024]⟩

/-- The value the maxima start from: the f32 pattern of −∞. -/
abbrev negInf : EReal := Ideal.ofBits .f32 0xFF800000#32

/-- A row's maximum, folded from −∞. -/
def rowMax (w : Fin 1024 → EReal) : EReal := (Finset.univ : Finset (Fin 1024)).fold max negInf w

/-- Folding in the starting value once more changes nothing: it is already below the fold. -/
theorem max_negInf_rowMax (w : Fin 1024 → EReal) : max negInf (rowMax w) = rowMax w :=
  max_eq_right ((Finset.le_fold_max negInf).mpr (Or.inl le_rfl))

/-- The softmax of a row at a position: the exponential of the entry less the row's maximum, over the sum of those. -/
def smax (w : Fin 1024 → EReal) (s : Fin 1024) : EReal :=
  Ideal.div (Ideal.exp (w s - rowMax w)) (∑ s' : Fin 1024, Ideal.exp (w s' - rowMax w))

/-- The score of query `q` against source `s` in batch `b`: the feature axis contracted. -/
def score (T K : FVec Ideal Sh3 .f32) (b : Fin 32) (q s : Fin 1024) : EReal :=
  ∑ d : Fin 1024, T (ix3 b d q) * K (ix3 b d s)

/-- The attention weight of source `s` for query `q`: the softmax of the query's row of scores. -/
def attn (T K : FVec Ideal Sh3 .f32) (b : Fin 32) (q s : Fin 1024) : EReal := smax (score T K b q) s

/-- The context: channel `v` of the values averaged with query `q`'s attention weights. -/
def ctx (T K V : FVec Ideal Sh3 .f32) (b : Fin 32) (v q : Fin 1024) : EReal :=
  ∑ s : Fin 1024, V (ix3 b v s) * attn T K b q s

/-- The first result before it is re-laid: the context as an array [batch, channel, query]. -/
def ctxArr (T K V : FVec Ideal Sh3 .f32) : FVec Ideal Sh3 .f32 := fun i => ctx T K V (i 0) (i 1) (i 2)

/-- The second result before it is re-laid: the attention weights transposed, [batch, source, query]. -/
def attnTArr (T K : FVec Ideal Sh3 .f32) : FVec Ideal Sh3 .f32 := fun i => attn T K (i 0) (i 2) (i 1)

theorem ctxArr_apply (T K V : FVec Ideal Sh3 .f32) (b : Fin 32) (v q : Fin 1024) :
    ctxArr T K V (ix3 b v q) = ctx T K V b v q := rfl

theorem attnTArr_apply (T K : FVec Ideal Sh3 .f32) (b : Fin 32) (s q : Fin 1024) :
    attnTArr T K (ix3 b s q) = attn T K b q s := rfl

end Cert.Attn

end
-- ==== Proof.LibColumn.lean ====
/-
  A vector turned into a column and the column spread over the columns of a matrix, read at an index: the two
  layout steps of every `keepdims` row reduction ([a] → [a, 1] → [a, b]). General in the element type and the
  extents; beside the library's leading-unit-axis casts and its row broadcast [1, b] → [a, b].
-/
import Idealize.ShloMosaic.Lib.Pipeline.Value
import Idealize.ShloMosaic.Lib.ValueIdx

namespace Idealize.ShloMosaic.ValueIdx

open Idealize.ShloMosaic

variable {α : Type}

/-- An `[a]` vector cast to the column `[a, 1]` reads, at `(i, u)`, the vector at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector `[a]` made a column and spread over `b` columns reads, at `(i, j)`, the
    vector at `i`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Idealize.ShloMosaic.ValueIdx
-- ==== Proof.Payload.lean ====
/-
  The body's arithmetic on the extended reals, read at an index.

  From a query block `x` [1, 1024 features, 256 queries] and the key cache `ks` [1024 features, 1024 sources] the body
  forms the score block `W[q, s] = ∑ d, x[0, d, q] · ks[d, s]` (a product accumulated into zeros; narrowing the operands
  changes nothing here), takes each row's maximum from −∞, the exponentials of the row less its maximum, their row sum
  from zero and the quotient: row `q` of the result is the softmax of row `q` of `W`. The context block is the value
  cache times the weights, `∑ s, vs[v, s] · P[q, s]`, and the second block is the weights with their two axes exchanged.
-/
import proofs.«148764_j1580547967055_2_alg».proof.Proof.Gen.KernelIdeal.Skeleton
import proofs.«148764_j1580547967055_2_alg».proof.Proof.Softmax
import proofs.«148764_j1580547967055_2_alg».proof.Proof.LibColumn
import Idealize.ShloMosaic.Lib.ValueLayout
import Idealize.ShloMosaic.PureOps.Ideal.Laws

noncomputable section

namespace Cert.KernelIdeal.Payload

open Cert.KernelIdeal Cert.KernelIdeal.Gen Cert.Attn
open Idealize.ShloMosaic Idealize.ShloMosaic.ValueIdx

/-! ## The caches: a block with its leading unit axis dropped -/

theorem pay1_apply (x : Vec Ideal S1x1024x1024 .f32) (d s : Fin 1024) :
    k0_pay1 (F := Ideal) x (ix2 d s) = x (ix3 (0 : Fin 1) d s) := by
  unfold k0_pay1
  rw [shapeCast_self]
  exact shapeCast_1ab_ab_apply x _ d s

theorem pay2_apply (x : Vec Ideal S1x1024x1024 .f32) (v s : Fin 1024) :
    k0_pay2 (F := Ideal) x (ix2 v s) = x (ix3 (0 : Fin 1) v s) := by
  unfold k0_pay2
  rw [shapeCast_self]
  exact shapeCast_1ab_ab_apply x _ v s

/-! ## The score block -/

/-- The score block as the body spells it: the query block without its unit axis, against the key cache, into zeros. -/
def scoreBlock (x : Vec Ideal S1x1024x256 .f32) (ks : FVec Ideal S1024x1024 .bf16) : FVec Ideal S256x1024 .f32 :=
  matmul dot_S1024x256_S1024x1024_S256x1024_0_0_1_1_n_n none (truncf .bf16 (shapeCast S1024x256 x shapeCasts_S1x1024x256_S1024x256) bitsLt_bf16_f32) ks
    (constant S256x1024 .f32 0x00000000#32)

theorem lhs1_0 (j : S256x1024.Idx) (k : dot_S1024x256_S1024x1024_S256x1024_0_0_1_1_n_n.contr.Idx) :
    (dot_S1024x256_S1024x1024_S256x1024_0_0_1_1_n_n.lhsIdx j k 0).val = (k ⟨0, by decide⟩).val :=
  dot_S1024x256_S1024x1024_S256x1024_0_0_1_1_n_n.lhsIdx_val_of_single rfl j k
theorem lhs1_1 (j : S256x1024.Idx) (k : dot_S1024x256_S1024x1024_S256x1024_0_0_1_1_n_n.contr.Idx) :
    (dot_S1024x256_S1024x1024_S256x1024_0_0_1_1_n_n.lhsIdx j k 1).val = (j 0).val := by
  unfold DotDims.lhsIdx
  rw [dif_neg (show ¬(1 : Fin S1024x256.rank) ∈ dot_S1024x256_S1024x1024_S256x1024_0_0_1_1_n_n.lhsBatch by decide), dif_pos (show (1 : Fin S1024x256.rank) ∈ dot_S1024x256_S1024x1024_S256x1024_0_0_1_1_n_n.lhsNonContracting by decide)]
  rfl
theorem rhs1_0 (j : S256x1024.Idx) (k : dot_S1024x256_S1024x1024_S256x1024_0_0_1_1_n_n.contr.Idx) :
    (dot_S1024x256_S1024x1024_S256x1024_0_0_1_1_n_n.rhsIdx j k 0).val = (k ⟨0, by decide⟩).val :=
  dot_S1024x256_S1024x1024_S256x1024_0_0_1_1_n_n.rhsIdx_val_of_single rfl j k
theorem rhs1_1 (j : S256x1024.Idx) (k : dot_S1024x256_S1024x1024_S256x1024_0_0_1_1_n_n.contr.Idx) :
    (dot_S1024x256_S1024x1024_S256x1024_0_0_1_1_n_n.rhsIdx j k 1).val = (j 1).val := by
  unfold DotDims.rhsIdx
  rw [dif_neg (show ¬(1 : Fin S1024x1024.rank) ∈ dot_S1024x256_S1024x1024_S256x1024_0_0_1_1_n_n.rhsBatch by decide), dif_pos (show (1 : Fin S1024x1024.rank) ∈ dot_S1024x256_S1024x1024_S256x1024_0_0_1_1_n_n.rhsNonContracting by decide)]
  rfl

/-- Entry `(q, s)` of the score block: the feature axis contracted. -/
theorem scoreBlock_apply (x : Vec Ideal S1x1024x256 .f32) (ks : FVec Ideal S1024x1024 .bf16) (q : Fin 256) (s : Fin 1024) :
    scoreBlock x ks (ix2 q s) = ∑ d : Fin 1024, x (ix3 (0 : Fin 1) d q) * ks (ix2 d s) := by
  unfold scoreBlock
  simp only [matmul]
  rw [Ideal.matmul_constant_zero_apply, ← Equiv.sum_comp (contrEquiv1 dot_S1024x256_S1024x1024_S256x1024_0_0_1_1_n_n 1024 rfl rfl).symm]
  refine Finset.sum_congr rfl fun k _ => ?_
  have hk := contrEquiv1_symm_val dot_S1024x256_S1024x1024_S256x1024_0_0_1_1_n_n 1024 rfl rfl k
  have el : dot_S1024x256_S1024x1024_S256x1024_0_0_1_1_n_n.lhsIdx (ix2 q s) ((contrEquiv1 dot_S1024x256_S1024x1024_S256x1024_0_0_1_1_n_n 1024 rfl rfl).symm k) = ix2 k q := funext fun a => Fin.ext (by
    match a with
    | ⟨0, _⟩ => exact (lhs1_0 _ _).trans hk
    | ⟨1, _⟩ => exact lhs1_1 _ _)
  have er : dot_S1024x256_S1024x1024_S256x1024_0_0_1_1_n_n.rhsIdx (ix2 q s) ((contrEquiv1 dot_S1024x256_S1024x1024_S256x1024_0_0_1_1_n_n 1024 rfl rfl).symm k) = ix2 k s := funext fun a => Fin.ext (by
    match a with
    | ⟨0, _⟩ => exact (rhs1_0 _ _).trans hk
    | ⟨1, _⟩ => exact rhs1_1 _ _)
  rw [el, er]
  exact congrArg (· * ks (ix2 k s)) (shapeCast_1ab_ab_apply x _ k q)

/-! ## The row softmax of a score block -/

/-- Each row's maximum, from −∞. -/
def rowMaxV (W : FVec Ideal S256x1024 .f32) : FVec Ideal S256 .f32 :=
  multiReduction .maximumf [1] S256 W 0xFF800000#32 reduces_S256x1024_S256 (.inl rfl) rfl

theorem rowMaxV_apply (W : FVec Ideal S256x1024 .f32) (q : Fin 256) :
    rowMaxV W (ix1 q) = rowMax (fun s => W (ix2 q s)) := by
  unfold rowMaxV rowMax
  refine (Ideal.multiReduction_maximumf_single W _ reduces_S256x1024_S256 _ _ (ix1 q)).trans ?_
  have hf : (W ∘ reduces_S256x1024_S256.lift (ix1 q)) = fun s : Fin 1024 => W (ix2 q s) :=
    funext fun (k : Fin 1024) => congrArg W (funext fun a => Fin.ext (by match a with | ⟨0, _⟩ => rfl | ⟨1, _⟩ => rfl))
  rw [hf]
  rfl

/-- The exponentials of each row less its maximum. -/
def expRows (W : FVec Ideal S256x1024 .f32) : FVec Ideal S256x1024 .f32 :=
  exp (subf W (broadcastTo S256x1024 (shapeCast S256x1 (rowMaxV W) shapeCasts_S256_S256x1) broadcasts_S256x1_S256x1024))

theorem expRows_apply (W : FVec Ideal S256x1024 .f32) (q : Fin 256) (s : Fin 1024) :
    expRows W (ix2 q s) = Ideal.exp (W (ix2 q s) - rowMax (fun s' => W (ix2 q s'))) := by
  unfold expRows
  show Ideal.exp (W (ix2 q s) - broadcastTo S256x1024 (shapeCast S256x1 (rowMaxV W) shapeCasts_S256_S256x1) broadcasts_S256x1_S256x1024 (ix2 q s)) = _
  rw [column_spread_apply, rowMaxV_apply]

/-- Each row's sum, from zero. -/
def rowSumV (E : FVec Ideal S256x1024 .f32) : FVec Ideal S256 .f32 :=
  multiReduction .add [1] S256 E 0x00000000#32 reduces_S256x1024_S256 (.inl rfl) rfl

theorem rowSumV_apply (E : FVec Ideal S256x1024 .f32) (q : Fin 256) :
    rowSumV E (ix1 q) = ∑ s : Fin 1024, E (ix2 q s) := by
  unfold rowSumV
  refine (Ideal.multiReduction_add_single E _ reduces_S256x1024_S256 _ _ (ix1 q)).trans ?_
  exact Finset.sum_congr rfl fun (k : Fin 1024) _ =>
    congrArg E (funext fun a => Fin.ext (by match a with | ⟨0, _⟩ => rfl | ⟨1, _⟩ => rfl))

/-- The weights: each exponential over its row's sum. -/
def softRows (W : FVec Ideal S256x1024 .f32) : FVec Ideal S256x1024 .f32 :=
  divf (expRows W) (broadcastTo S256x1024 (shapeCast S256x1 (rowSumV (expRows W)) shapeCasts_S256_S256x1) broadcasts_S256x1_S256x1024)

/-- Row `q` of the weights is the softmax of row `q` of the scores. -/
theorem softRows_apply (W : FVec Ideal S256x1024 .f32) (q : Fin 256) (s : Fin 1024) :
    softRows W (ix2 q s) = smax (fun s' => W (ix2 q s')) s := by
  unfold softRows smax
  show Ideal.div (expRows W (ix2 q s))
    (broadcastTo S256x1024 (shapeCast S256x1 (rowSumV (expRows W)) shapeCasts_S256_S256x1) broadcasts_S256x1_S256x1024 (ix2 q s)) = _
  rw [column_spread_apply, rowSumV_apply, expRows_apply]
  exact congrArg (Ideal.div _) (Finset.sum_congr rfl fun s' _ => expRows_apply W q s')

/-- The body's weights are those of its score block. -/
theorem pay3_eq (x : Vec Ideal S1x1024x256 .f32) (ks : FVec Ideal S1024x1024 .bf16) :
    k0_pay3 (F := Ideal) x ks = softRows (scoreBlock x ks) := rfl

/-- Entry `(q, s)` of the body's weights. -/
theorem pay3_apply (x : Vec Ideal S1x1024x256 .f32) (ks : FVec Ideal S1024x1024 .bf16) (q : Fin 256) (s : Fin 1024) :
    k0_pay3 (F := Ideal) x ks (ix2 q s) = smax (fun s' => ∑ d : Fin 1024, x (ix3 (0 : Fin 1) d q) * ks (ix2 d s')) s := by
  rw [pay3_eq, softRows_apply]
  exact congrArg (fun w => smax w s) (funext fun s' => scoreBlock_apply x ks q s')

/-! ## The context block and the transposed weights -/

theorem lhs2_0 (j : S1024x256.Idx) (k : dot_S1024x1024_S256x1024_S1024x256_1_1_0_0_n_n.contr.Idx) :
    (dot_S1024x1024_S256x1024_S1024x256_1_1_0_0_n_n.lhsIdx j k 0).val = (j 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhs2_1 (j : S1024x256.Idx) (k : dot_S1024x1024_S256x1024_S1024x256_1_1_0_0_n_n.contr.Idx) :
    (dot_S1024x1024_S256x1024_S1024x256_1_1_0_0_n_n.lhsIdx j k 1).val = (k ⟨0, by decide⟩).val :=
  dot_S1024x1024_S256x1024_S1024x256_1_1_0_0_n_n.lhsIdx_val_of_single rfl j k
theorem rhs2_0 (j : S1024x256.Idx) (k : dot_S1024x1024_S256x1024_S1024x256_1_1_0_0_n_n.contr.Idx) :
    (dot_S1024x1024_S256x1024_S1024x256_1_1_0_0_n_n.rhsIdx j k 0).val = (j 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhs2_1 (j : S1024x256.Idx) (k : dot_S1024x1024_S256x1024_S1024x256_1_1_0_0_n_n.contr.Idx) :
    (dot_S1024x1024_S256x1024_S1024x256_1_1_0_0_n_n.rhsIdx j k 1).val = (k ⟨0, by decide⟩).val :=
  dot_S1024x1024_S256x1024_S1024x256_1_1_0_0_n_n.rhsIdx_val_of_single rfl j k

/-- Entry `(0, v, q)` of the context block: the source axis contracted against the weights of query `q`. -/
theorem pay4_apply (x : Vec Ideal S1x1024x256 .f32) (ks vs : FVec Ideal S1024x1024 .bf16) (u : Fin 1) (v : Fin 1024) (q : Fin 256) :
    k0_pay4 (F := Ideal) x ks vs (ix3 u v q) = ∑ s : Fin 1024, vs (ix2 v s) * k0_pay3 (F := Ideal) x ks (ix2 q s) := by
  unfold k0_pay4
  refine (shapeCast_ab_1ab_apply _ _ u v q).trans ?_
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 v q) ((contrEquiv1 dot_S1024x1024_S256x1024_S1024x256_1_1_0_0_n_n 1024 rfl rfl).symm k) = ix2 v k := funext fun a => Fin.ext (by
    match a with
    | ⟨0, _⟩ => exact lhs2_0 _ _
    | ⟨1, _⟩ => exact (lhs2_1 _ _).trans hk)
  have er : dot_S1024x1024_S256x1024_S1024x256_1_1_0_0_n_n.rhsIdx (ix2 v q) ((contrEquiv1 dot_S1024x1024_S256x1024_S1024x256_1_1_0_0_n_n 1024 rfl rfl).symm k) = ix2 q k := funext fun a => Fin.ext (by
    match a with
    | ⟨0, _⟩ => exact rhs2_0 _ _
    | ⟨1, _⟩ => exact (rhs2_1 _ _).trans hk)
  rw [el, er]
  rfl

/-- Entry `(0, s, q)` of the second block: the weight of source `s` for query `q`. -/
theorem pay5_apply (x : Vec Ideal S1x1024x256 .f32) (ks : FVec Ideal S1024x1024 .bf16) (u : Fin 1) (s : Fin 1024) (q : Fin 256) :
    k0_pay5 (F := Ideal) x ks (ix3 u s q) = k0_pay3 (F := Ideal) x ks (ix2 q s) := by
  unfold k0_pay5
  refine (shapeCast_ab_1ab_apply _ _ u s q).trans ?_
  exact transpose_ix2_apply _ _ s q

/-! ## The two blocks as entries of the attention of three arrays -/

/-- If the query block is column tile `qq` of batch `b` of `T`, and the caches are batch `b` of `K` and `V`, then entry
    `(0, v, q)` of the context block is the context of channel `v` for query `qq`. -/
theorem ctxEntry (x : Vec Ideal S1x1024x256 .f32) (ks vs : FVec Ideal S1024x1024 .bf16) (T K V : FVec Ideal Sh3 .f32)
    (b : Fin 32) (qq : Fin 1024) (u : Fin 1) (v : Fin 1024) (q : Fin 256)
    (hx : ∀ d : Fin 1024, x (ix3 (0 : Fin 1) d q) = T (ix3 b d qq))
    (hk : ∀ d s : Fin 1024, ks (ix2 d s) = K (ix3 b d s)) (hv : ∀ s : Fin 1024, vs (ix2 v s) = V (ix3 b v s)) :
    k0_pay4 (F := Ideal) x ks vs (ix3 u v q) = ctx T K V b v qq := by
  rw [pay4_apply]
  unfold ctx attn score
  refine Finset.sum_congr rfl fun s _ => ?_
  rw [hv s, pay3_apply]
  refine congrArg (fun w => V (ix3 b v s) * smax w s) (funext fun s' => Finset.sum_congr rfl fun d _ => ?_)
  rw [hx d, hk d s']

/-- Under the same hypotheses entry `(0, s, q)` of the second block is the weight of source `s` for query `qq`. -/
theorem attnEntry (x : Vec Ideal S1x1024x256 .f32) (ks : FVec Ideal S1024x1024 .bf16) (T K : FVec Ideal Sh3 .f32)
    (b : Fin 32) (qq : Fin 1024) (u : Fin 1) (s : Fin 1024) (q : Fin 256)
    (hx : ∀ d : Fin 1024, x (ix3 (0 : Fin 1) d q) = T (ix3 b d qq))
    (hk : ∀ d s : Fin 1024, ks (ix2 d s) = K (ix3 b d s)) :
    k0_pay5 (F := Ideal) x ks (ix3 u s q) = attn T K b qq s := by
  rw [pay5_apply, pay3_apply]
  unfold attn score
  refine congrArg (fun w => smax w s) (funext fun s' => Finset.sum_congr rfl fun d _ => ?_)
  rw [hx d, hk d s']

end Cert.KernelIdeal.Payload

end
-- ==== Proof.Blocks.lean ====
/-
  Where a grid point's blocks sit in their arrays. Point `t` of the 32 × 4 grid is batch `t / 4`, query tile `t % 4`:
  the query block is rows `[t / 4, all features, 256 · (t % 4) + ·]` of the re-laid input, the key and value blocks are
  batch `t / 4` whole, and the two output blocks sit where the query block does. The re-laid input the region finds is
  the first argument with its last two axes merged.
-/
import proofs.«148764_j1580547967055_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.Tactic

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-! ## The index maps over the grid -/

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, win0_0.index t (0 : Fin 3) = t.val / 4 ∧ win0_0.index t (1 : Fin 3) = 0 ∧ win0_0.index t (2 : Fin 3) = t.val % 4)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, win0_3.index t (0 : Fin 3) = t.val / 4 ∧ win0_3.index t (1 : Fin 3) = 0 ∧ win0_3.index t (2 : Fin 3) = t.val % 4)
theorem idx4 : ∀ t : Fin cfg0.N, win0_4.index t (0 : Fin 3) = t.val / 4 ∧ win0_4.index t (1 : Fin 3) = 0 ∧ win0_4.index t (2 : Fin 3) = t.val % 4 :=
  (by decide +kernel : ∀ t : Fin grid0.N, win0_4.index t (0 : Fin 3) = t.val / 4 ∧ win0_4.index t (1 : Fin 3) = 0 ∧ win0_4.index t (2 : Fin 3) = t.val % 4)

/-! ## The input blocks read where they sit -/

/-- The query block at `(0, d, q)` is the re-laid input at `(t / 4, d, 256 · (t % 4) + q)`. -/
theorem queryBlock_apply (c : Dev nD) (t : Fin cfg0.N) (u : Fin 1) (d : Fin 1024) (q : Fin 256) (b : Fin 32) (qq : Fin 1024)
    (hb : b.val = t.val / 4) (hq : qq.val = t.val % 4 * 256 + q.val) :
    iblk m c 0 t (ix3 u d q) = V m c main_v0 (ix3 b d qq) := by
  show V m c main_v0 (((cfg0.win 0).blk t).view.emb (ix3 u d q)) = V m c main_v0 (ix3 b d qq)
  refine congrArg (V m c main_v0) (funext fun a => Fin.ext ?_)
  have hu : u.val = 0 := by omega
  match a with
  | ⟨0, _⟩ => show win0_0.index t 0 * 1 + 1 * u.val = b.val; rw [(idx0 t).1]; omega
  | ⟨1, _⟩ => show win0_0.index t 1 * 1024 + 1 * d.val = d.val; rw [(idx0 t).2.1]; omega
  | ⟨2, _⟩ => show win0_0.index t 2 * 256 + 1 * q.val = qq.val; rw [(idx0 t).2.2]; omega

/-- The key block at `(0, d, s)` is the key array at `(t / 4, d, s)`. -/
theorem keyBlock_apply (c : Dev nD) (t : Fin cfg0.N) (u : Fin 1) (d s : Fin 1024) (b : Fin 32) (hb : b.val = t.val / 4) :
    iblk m c 1 t (ix3 u d s) = V m c main_arg1 (ix3 b d s) := by
  show V m c main_arg1 (((cfg0.win 1).blk t).view.emb (ix3 u d s)) = V m c main_arg1 (ix3 b d s)
  refine congrArg (V m c main_arg1) (funext fun a => Fin.ext ?_)
  have hu : u.val = 0 := by omega
  match a with
  | ⟨0, _⟩ => show win0_1.index t 0 * 1 + 1 * u.val = b.val; rw [(idx1 t).1]; omega
  | ⟨1, _⟩ => show win0_1.index t 1 * 1024 + 1 * d.val = d.val; rw [(idx1 t).2.1]; omega
  | ⟨2, _⟩ => show win0_1.index t 2 * 1024 + 1 * s.val = s.val; rw [(idx1 t).2.2]; omega

/-- The value block at `(0, v, s)` is the value array at `(t / 4, v, s)`. -/
theorem valBlock_apply (c : Dev nD) (t : Fin cfg0.N) (u : Fin 1) (v s : Fin 1024) (b : Fin 32) (hb : b.val = t.val / 4) :
    iblk m c 2 t (ix3 u v s) = V m c main_arg2 (ix3 b v s) := by
  show V m c main_arg2 (((cfg0.win 2).blk t).view.emb (ix3 u v s)) = V m c main_arg2 (ix3 b v s)
  refine congrArg (V m c main_arg2) (funext fun a => Fin.ext ?_)
  have hu : u.val = 0 := by omega
  match a with
  | ⟨0, _⟩ => show win0_2.index t 0 * 1 + 1 * u.val = b.val; rw [(idx2 t).1]; omega
  | ⟨1, _⟩ => show win0_2.index t 1 * 1024 + 1 * v.val = v.val; rw [(idx2 t).2.1]; omega
  | ⟨2, _⟩ => show win0_2.index t 2 * 1024 + 1 * s.val = s.val; rw [(idx2 t).2.2]; omega

/-! ## The re-laid input -/

/-- What the region finds in the re-laid input: the first argument with its last two axes merged. -/
theorem relaid_eq (c : Dev nD) :
    (V m c main_v0 : S32x1024x1024.Idx → Elt F .f32)
      = shapeCast S32x1024x1024 (m ((c : Thread nD τ).loc main_arg0)) shapeCasts_S32x1024x32x32_S32x1024x1024 := by
  show StableHlo.after hostOps0 (fun b => m (c, b)) (Proc.devRef .tc main_v0) = _
  after_results
  rfl

end Cert.KernelIdeal.Blocks

end
-- ==== Proof.Points.lean ====
/-
  What the staging buffers and the two caches hold after each grid point, in closed form. The four query tiles of a
  batch run one after the other and only the first refills the caches, so after point `t` the caches hold batch
  `t / 4` of the key and value arrays: at a first tile because they were just refilled from that batch's blocks, at a
  later tile because the point before belongs to the same batch and this point leaves them alone. The two output
  buffers then hold the body's values of the point's query block and those caches — by induction on the point.
-/
import proofs.«148764_j1580547967055_2_alg».proof.Proof.Pieces
import proofs.«148764_j1580547967055_2_alg».proof.Proof.Payload
import proofs.«148764_j1580547967055_2_alg».proof.Proof.Blocks

noncomputable section

open Idealize.ShloMosaic Idealize.ShloMosaic.TcCoe Idealize.SL.Sem Idealize.ShloMosaic.Tactic

namespace Cert.KernelIdeal.Points

open Cert.KernelIdeal Cert.KernelIdeal.Gen Cert.Attn Idealize.ShloMosaic.ValueIdx

variable (m : (ℓ : Loc nD τ sig) → Buf (Elt Ideal) ℓ)

/-- Batch `b` of the key array as the region finds it, as a [1024, 1024] matrix. -/
def keyOf (c : Dev nD) (b : Fin 32) : FVec Ideal S1024x1024 .bf16 := fun j => V m c main_arg1 (ix3 b (j 0) (j 1))
/-- Batch `b` of the value array likewise. -/
def valOf (c : Dev nD) (b : Fin 32) : FVec Ideal S1024x1024 .bf16 := fun j => V m c main_arg2 (ix3 b (j 0) (j 1))

/-- The batch a grid position belongs to. -/
def bat (n : ℕ) (h : n < cfg0.N) : Fin 32 := ⟨n / 4, by have hN : cfg0.N = 128 := N_0; omega⟩

/-- What point `t` leaves when the caches hold `ks` and `vs`: the two output blocks computed from them, and the caches. -/
def leaves (c : Dev nD) (t : Fin cfg0.N) (ks vs : FVec Ideal S1024x1024 .bf16) :
    Vec Ideal S1x1024x256 .f32 × Vec Ideal S1x1024x256 .f32 × Vec Ideal S1024x1024 .bf16 × Vec Ideal S1024x1024 .bf16 :=
  (k0_pay4 (iblk m c 0 t) ks vs, k0_pay5 (iblk m c 0 t) ks, ks, vs)

/-- A refilled key cache holds the point's batch of the key array. -/
theorem refill_key (c : Dev nD) (t : Fin cfg0.N) : k0_pay1 (F := Ideal) (iblk m c 1 t) = keyOf m c (bat t.val t.isLt) := by
  funext j
  obtain ⟨d, s, rfl⟩ : ∃ (d s : Fin 1024), j = ix2 d s := ⟨j 0, j 1, eq_ix2 j⟩
  exact (Payload.pay1_apply (iblk m c 1 t) d s).trans (Blocks.keyBlock_apply m c t 0 d s (bat t.val t.isLt) rfl)

/-- A refilled value cache holds the point's batch of the value array. -/
theorem refill_val (c : Dev nD) (t : Fin cfg0.N) : k0_pay2 (F := Ideal) (iblk m c 2 t) = valOf m c (bat t.val t.isLt) := by
  funext j
  obtain ⟨v, s, rfl⟩ : ∃ (v s : Fin 1024), j = ix2 v s := ⟨j 0, j 1, eq_ix2 j⟩
  exact (Payload.pay2_apply (iblk m c 2 t) v s).trans (Blocks.valBlock_apply m c t 0 v s (bat t.val t.isLt) rfl)

/-- A first tile: the caches are refilled with the point's batch, and the outputs are computed from them. -/
theorem first_tile (c : Dev nD) (t : Fin cfg0.N) (h0 : t.val % 4 = 0) :
    outsAt0 m c t.val t.isLt = leaves m c t (keyOf m c (bat t.val t.isLt)) (valOf m c (bat t.val t.isLt)) := by
  rw [outsAt0_A m c t h0, Pieces.ctxBlock_A, Pieces.attnBlock_A, Pieces.keyCache_A, Pieces.valCache_A,
    refill_key m c t, refill_val m c t]
  rfl

/-- A later tile: the caches are what the point before left, and the outputs are computed from those. -/
theorem later_tile (c : Dev nD) (t : Fin cfg0.N) (h0 : ¬t.val % 4 = 0) :
    outsAt0 m c t.val t.isLt
      = leaves m c t (outsAt0 m c (t.val - 1) (Nat.lt_of_le_of_lt (Nat.sub_le _ _) t.isLt)).2.2.1
          (outsAt0 m c (t.val - 1) (Nat.lt_of_le_of_lt (Nat.sub_le _ _) t.isLt)).2.2.2 := by
  rw [outsAt0_B m c t h0, Pieces.ctxBlock_B, Pieces.attnBlock_B]
  rfl

/-- After every point: the caches hold the point's batch and the outputs are computed from them. -/
theorem outs_eq (c : Dev nD) : ∀ (n : ℕ) (h : n < cfg0.N),
    outsAt0 m c n h = leaves m c ⟨n, h⟩ (keyOf m c (bat n h)) (valOf m c (bat n h))
  | 0, h => first_tile m c ⟨0, h⟩ rfl
  | n + 1, h => by
    by_cases h0 : (n + 1) % 4 = 0
    · exact first_tile m c ⟨n + 1, h⟩ h0
    · have ih := outs_eq c n (Nat.lt_of_succ_lt h)
      have hb : bat n (Nat.lt_of_succ_lt h) = bat (n + 1) h := Fin.ext (by show n / 4 = (n + 1) / 4; omega)
      refine (later_tile m c ⟨n + 1, h⟩ h0).trans ?_
      show leaves m c ⟨n + 1, h⟩ (outsAt0 m c n (Nat.lt_of_succ_lt h)).2.2.1 (outsAt0 m c n (Nat.lt_of_succ_lt h)).2.2.2 = _
      rw [ih]
      show leaves m c ⟨n + 1, h⟩ (keyOf m c (bat n _)) (valOf m c (bat n _)) = _
      rw [hb]

/-- The context buffer after point `t`, at `(0, v, q)`: the context of channel `v` for query `256 · (t % 4) + q` of
    batch `t / 4`, of the three arrays as the region finds them. -/
theorem ctxBuf_apply (c : Dev nD) (t : Fin cfg0.N) (u : Fin 1) (v : Fin 1024) (q : Fin 256) (b : Fin 32) (qq : Fin 1024)
    (hb : b.val = t.val / 4) (hq : qq.val = t.val % 4 * 256 + q.val) :
    (outsAt0 m c t.val t.isLt).1 (ix3 u v q) = ctx (V m c main_v0) (V m c main_arg1) (V m c main_arg2) b v qq := by
  obtain rfl : b = bat t.val t.isLt := Fin.ext hb
  rw [outs_eq m c t.val t.isLt]
  exact Payload.ctxEntry (iblk m c 0 t) (keyOf m c (bat t.val t.isLt)) (valOf m c (bat t.val t.isLt))
    (V m c main_v0) (V m c main_arg1) (V m c main_arg2) (bat t.val t.isLt) qq u v q
    (fun d => Blocks.queryBlock_apply m c t 0 d q (bat t.val t.isLt) qq rfl hq) (fun d s => rfl) (fun s => rfl)

/-- The weights buffer after point `t`, at `(0, s, q)`: the weight of source `s` for that query. -/
theorem attnBuf_apply (c : Dev nD) (t : Fin cfg0.N) (u : Fin 1) (s : Fin 1024) (q : Fin 256) (b : Fin 32) (qq : Fin 1024)
    (hb : b.val = t.val / 4) (hq : qq.val = t.val % 4 * 256 + q.val) :
    (outsAt0 m c t.val t.isLt).2.1 (ix3 u s q) = attn (V m c main_v0) (V m c main_arg1) b qq s := by
  obtain rfl : b = bat t.val t.isLt := Fin.ext hb
  rw [outs_eq m c t.val t.isLt]
  exact Payload.attnEntry (iblk m c 0 t) (keyOf m c (bat t.val t.isLt))
    (V m c main_v0) (V m c main_arg1) (bat t.val t.isLt) qq u s q
    (fun d => Blocks.queryBlock_apply m c t 0 d q (bat t.val t.isLt) qq rfl hq) (fun d s => rfl)

end Cert.KernelIdeal.Points

end
-- ==== Proof.Outputs.lean ====
/-
  The two results as functions of the three arguments: the first argument's last two axes are merged to give the
  queries, the attention of `Softmax.lean` is taken, and the context and the transposed weights have their last axis
  split back. The two shape facts are parameters, so that each program supplies its own statement of them.
-/
import proofs.«148764_j1580547967055_2_alg».proof.Proof.Softmax
import Idealize.ShloMosaic.PureOps

noncomputable section

namespace Cert.Attn

open Idealize.ShloMosaic

/-- The shape of the first argument and of both results: [32, 1024, 32, 32]. -/
abbrev Sh4 : Shape := ⟨4, ![32, 1024, 32, 32]⟩

/-- The first result: the context, re-laid. -/
def ctxOut (h1 : Sh4.ShapeCasts Sh3) (h2 : Sh3.ShapeCasts Sh4) (x0 : FVec Ideal Sh4 .f32) (x1 x2 : FVec Ideal Sh3 .f32) :
    FVec Ideal Sh4 .f32 :=
  shapeCast Sh4 (ctxArr (shapeCast Sh3 x0 h1) x1 x2) h2

/-- The second result: the transposed weights, re-laid. -/
def attnOut (h1 : Sh4.ShapeCasts Sh3) (h2 : Sh3.ShapeCasts Sh4) (x0 : FVec Ideal Sh4 .f32) (x1 : FVec Ideal Sh3 .f32) :
    FVec Ideal Sh4 .f32 :=
  shapeCast Sh4 (attnTArr (shapeCast Sh3 x0 h1) x1) h2

end Cert.Attn

end
-- ==== Proof.KernelValue.lean ====
/-
  The kernel program's two results. Every grid point writes its two output blocks back, the blocks of the 32 × 4 grid
  tile each [32, 1024, 1024] array (index `(b, r, n)` is in the block of point `4 b + n / 256`), and what point `t`
  writes is the block of the context array (of the transposed weights) it covers: so after the region the two arrays
  hold the context and the transposed weights of the three arrays the region found, and the two host lines after
  the region split their last axis.
-/
import proofs.«148764_j1580547967055_2_alg».proof.Proof.Points
import proofs.«148764_j1580547967055_2_alg».proof.Proof.Outputs

noncomputable section

open Idealize.ShloMosaic Idealize.ShloMosaic.TcCoe Idealize.SL.Sem Idealize.ShloMosaic.Tactic

namespace Cert.KernelIdeal.KernelValue

open Cert.KernelIdeal Cert.KernelIdeal.Gen Cert.Attn Idealize.ShloMosaic.ValueIdx
open Idealize.ShloMosaic.Pipeline (Dat)

variable (m : (ℓ : Loc nD τ sig) → Buf (Elt Ideal) ℓ) (ρ : Dev nD → PrngReg)

/-- The context array of the three arrays as the region finds them. -/
def ctxA (c : Dev nD) : FVec Ideal Sh3 .f32 := ctxArr (V m c main_v0) (V m c main_arg1) (V m c main_arg2)
/-- The transposed weights of the arrays as the region finds them. -/
def attnA (c : Dev nD) : FVec Ideal Sh3 .f32 := attnTArr (V m c main_v0) (V m c main_arg1)

/-! ## What a point writes back -/

theorem wrote3_apply (c : Dev nD) (t : Fin cfg0.N) (y : S1x1024x256.Idx) :
    (outsAt0 m c t.val t.isLt).1 y = ctxA m c (((cfg0.win 3).blk t).view.emb y) := by
  obtain ⟨u, v, q, rfl⟩ : ∃ (u : Fin 1) (v : Fin 1024) (q : Fin 256), y = ix3 u v q := ⟨y 0, y 1, y 2, eq_ix3 y⟩
  have hN : t.val < 128 := lt_of_lt_of_eq t.isLt N_0
  have hq : q.val < 256 := q.isLt
  have hu : u.val = 0 := by omega
  obtain ⟨e0, e1, e2⟩ := Blocks.idx3 t
  have he : ((cfg0.win 3).blk t).view.emb (ix3 u v q)
      = ix3 (⟨t.val / 4, by omega⟩ : Fin 32) v (⟨t.val % 4 * 256 + q.val, by omega⟩ : Fin 1024) :=
    funext fun a => Fin.ext (by
      match a with
      | ⟨0, _⟩ => show win0_3.index t 0 * 1 + 1 * u.val = t.val / 4; rw [e0]; omega
      | ⟨1, _⟩ => show win0_3.index t 1 * 1024 + 1 * v.val = v.val; rw [e1]; omega
      | ⟨2, _⟩ => show win0_3.index t 2 * 256 + 1 * q.val = t.val % 4 * 256 + q.val; rw [e2]; omega)
  rw [he]
  exact Points.ctxBuf_apply m c t u v q _ _ rfl rfl

theorem wrote4_apply (c : Dev nD) (t : Fin cfg0.N) (y : S1x1024x256.Idx) :
    (outsAt0 m c t.val t.isLt).2.1 y = attnA m c (((cfg0.win 4).blk t).view.emb y) := by
  obtain ⟨u, s, q, rfl⟩ : ∃ (u : Fin 1) (s : Fin 1024) (q : Fin 256), y = ix3 u s q := ⟨y 0, y 1, y 2, eq_ix3 y⟩
  have hN : t.val < 128 := lt_of_lt_of_eq t.isLt N_0
  have hq : q.val < 256 := q.isLt
  have hu : u.val = 0 := by omega
  obtain ⟨e0, e1, e2⟩ := Blocks.idx4 t
  have he : ((cfg0.win 4).blk t).view.emb (ix3 u s q)
      = ix3 (⟨t.val / 4, by omega⟩ : Fin 32) s (⟨t.val % 4 * 256 + q.val, by omega⟩ : Fin 1024) :=
    funext fun a => Fin.ext (by
      match a with
      | ⟨0, _⟩ => show win0_4.index t 0 * 1 + 1 * u.val = t.val / 4; rw [e0]; omega
      | ⟨1, _⟩ => show win0_4.index t 1 * 1024 + 1 * s.val = s.val; rw [e1]; omega
      | ⟨2, _⟩ => show win0_4.index t 2 * 256 + 1 * q.val = t.val % 4 * 256 + q.val; rw [e2]; omega)
  rw [he]
  exact Points.attnBuf_apply m c t u s q _ _ rfl rfl

/-- What point `t` writes back through the context window is the block of the context array it covers. -/
theorem flushed3_eq (c : Dev nD) (t : Fin cfg0.N) :
    (dats m 0 c).flushed 3 t = ((cfg0.win 3).blk t).view.read (Elt Ideal) (ctxA m c) := by
  show (cfg0.win 3).cut (grid0.coords t) ((dats m 0 c).after 3 t) = _
  rw [after0_3]
  exact funext fun y => wrote3_apply m c t y

/-- What point `t` writes back through the weights window is the block of the transposed weights it covers. -/
theorem flushed4_eq (c : Dev nD) (t : Fin cfg0.N) :
    (dats m 0 c).flushed 4 t = ((cfg0.win 4).blk t).view.read (Elt Ideal) (attnA m c) := by
  show (cfg0.win 4).cut (grid0.coords t) ((dats m 0 c).after 4 t) = _
  rw [after0_4]
  exact funext fun y => wrote4_apply m c t y

/-! ## The blocks tile the arrays -/

theorem mem_blk3 (t : Fin cfg0.N) (i : S32x1024x1024.Idx) :
    i ∈ ((cfg0.win 3).blk t).view.set ↔ ∀ a : Fin 3, win0_3.index t a * S1x1024x256.size a ≤ (i a).val ∧ (i a).val < win0_3.index t a * S1x1024x256.size a + S1x1024x256.size a := by
  show i ∈ ((View.whole main_v1_0).slice (win0_3.rect t)).set ↔ _
  rw [View.set_slice_whole, Rect.mem_set_unit]
  exact Iff.rfl

theorem mem_blk4 (t : Fin cfg0.N) (i : S32x1024x1024.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v1_1).slice (win0_4.rect t)).set ↔ _
  rw [View.set_slice_whole, Rect.mem_set_unit]
  exact Iff.rfl

/-- The point whose blocks hold index `(b, r, n)`: batch `b`, tile `n / 256`. -/
def pointOf (i : S32x1024x1024.Idx) : Fin cfg0.N :=
  ⟨(i 0).val * 4 + (i 2).val / 256, by
    have h0 : (i 0).val < 32 := (i 0).isLt
    have h2 : (i 2).val < 1024 := (i 2).isLt
    rw [show cfg0.N = 128 from N_0]; omega⟩

theorem cover3 (i : S32x1024x1024.Idx) :
    ∃ t : Fin cfg0.N, (cfg0.win 3).flush t = true ∧ i ∈ ((cfg0.win 3).blk t).view.set := by
  have h0 : (i 0).val < 32 := (i 0).isLt
  have h1 : (i 1).val < 1024 := (i 1).isLt
  have h2 : (i 2).val < 1024 := (i 2).isLt
  have ht : (pointOf i).val = (i 0).val * 4 + (i 2).val / 256 := rfl
  obtain ⟨e0, e1, e2⟩ := Blocks.idx3 (pointOf i)
  refine ⟨pointOf i, flush0_3 _, ?_⟩
  rw [mem_blk3]
  intro a
  match a with
  | ⟨0, _⟩ => show win0_3.index (pointOf i) 0 * 1 ≤ (i 0).val ∧ (i 0).val < win0_3.index (pointOf i) 0 * 1 + 1; rw [e0, ht]; omega
  | ⟨1, _⟩ => show win0_3.index (pointOf i) 1 * 1024 ≤ (i 1).val ∧ (i 1).val < win0_3.index (pointOf i) 1 * 1024 + 1024; rw [e1]; omega
  | ⟨2, _⟩ => show win0_3.index (pointOf i) 2 * 256 ≤ (i 2).val ∧ (i 2).val < win0_3.index (pointOf i) 2 * 256 + 256; rw [e2, ht]; omega

theorem cover4 (i : S32x1024x1024.Idx) :
    ∃ t : Fin cfg0.N, (cfg0.win 4).flush t = true ∧ i ∈ ((cfg0.win 4).blk t).view.set := by
  have h0 : (i 0).val < 32 := (i 0).isLt
  have h1 : (i 1).val < 1024 := (i 1).isLt
  have h2 : (i 2).val < 1024 := (i 2).isLt
  have ht : (pointOf i).val = (i 0).val * 4 + (i 2).val / 256 := rfl
  obtain ⟨e0, e1, e2⟩ := Blocks.idx4 (pointOf i)
  refine ⟨pointOf i, flush0_4 _, ?_⟩
  rw [mem_blk4]
  intro a
  match a with
  | ⟨0, _⟩ => show win0_4.index (pointOf i) 0 * 1 ≤ (i 0).val ∧ (i 0).val < win0_4.index (pointOf i) 0 * 1 + 1; rw [e0, ht]; omega
  | ⟨1, _⟩ => show win0_4.index (pointOf i) 1 * 1024 ≤ (i 1).val ∧ (i 1).val < win0_4.index (pointOf i) 1 * 1024 + 1024; rw [e1]; omega
  | ⟨2, _⟩ => show win0_4.index (pointOf i) 2 * 256 ≤ (i 2).val ∧ (i 2).val < win0_4.index (pointOf i) 2 * 256 + 256; rw [e2, ht]; omega

/-! ## The two arrays after the region -/

theorem final3 (c : Dev nD) : (dats m 0 c).arrAt 3 cfg0.N = ctxA m c :=
  (dats m 0 c).arrAt_eq_of_cover 3 (ctxA m c) (fun t _ => flushed3_eq m c t) (cover3)

theorem final4 (c : Dev nD) : (dats m 0 c).arrAt 4 cfg0.N = attnA m c :=
  (dats m 0 c).arrAt_eq_of_cover 4 (attnA m c) (fun t _ => flushed4_eq m c t) (cover4)

end Cert.KernelIdeal.KernelValue

end
-- ==== Proof.KernelRun.lean ====
/-
  The kernel program's run, read at its results. After the region the two host lines split the last axis of the
  context array and of the transposed weights; the region found the first argument with its last two axes merged
  and the other two arguments as launched. So the two results are the functions of `Outputs.lean` of the three
  arguments, and the arguments end unchanged.
-/
import proofs.«148764_j1580547967055_2_alg».proof.Proof.KernelValue

noncomputable section

open Idealize.ShloMosaic Idealize.ShloMosaic.TcCoe Idealize.SL.Sem Idealize.ShloMosaic.Tactic

namespace Cert.KernelIdeal.KernelRun

open Cert.KernelIdeal Cert.KernelIdeal.Gen Cert.Attn Idealize.ShloMosaic.ValueIdx Cert.KernelIdeal.KernelValue
open Idealize.ShloMosaic.Pipeline (Dat)

variable (m : (ℓ : Loc nD τ sig) → Buf (Elt Ideal) ℓ) (ρ : Dev nD → PrngReg)

/-- The context array in terms of the launch contents of the arguments. -/
theorem ctxA_eq (c : Dev nD) :
    ctxA m c = ctxArr (shapeCast S32x1024x1024 (m ((c : Thread nD τ).loc main_arg0)) shapeCasts_S32x1024x32x32_S32x1024x1024)
      (m ((c : Thread nD τ).loc main_arg1)) (m ((c : Thread nD τ).loc main_arg2)) := by
  unfold ctxA
  rw [Blocks.relaid_eq m c, V_main_arg1 m c, V_main_arg2 m c]

/-- The transposed weights in terms of the launch contents of the arguments. -/
theorem attnA_eq (c : Dev nD) :
    attnA m c = attnTArr (shapeCast S32x1024x1024 (m ((c : Thread nD τ).loc main_arg0)) shapeCasts_S32x1024x32x32_S32x1024x1024)
      (m ((c : Thread nD τ).loc main_arg1)) := by
  unfold attnA
  rw [Blocks.relaid_eq m c, V_main_arg1 m c]

/-- The first result after the host lines that follow the region. -/
theorem tail2 (c : Dev nD) : Pipeline.afterTail₀ cfgs (dats m) 0 (V0 m) [hostOps1] c main_v2
    = ctxOut shapeCasts_S32x1024x32x32_S32x1024x1024 shapeCasts_S32x1024x1024_S32x1024x32x32
        (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v1_0)
      = ctxA m c :=
    (Pipeline.withArrays_arr spec0 launch0.win.arr_inj c _ _ 3).trans (final3 m c)
  unfold Pipeline.afterTail₀
  show StableHlo.after hostOps1 _ (Proc.devRef .tc main_v2) = _
  after_results
  refine Eq.trans ?_ (congrArg (fun X => shapeCast S32x1024x32x32 X shapeCasts_S32x1024x1024_S32x1024x32x32) (hw.trans (ctxA_eq m c)))
  rfl

/-- The second result after the host lines that follow the region. -/
theorem tail3 (c : Dev nD) : Pipeline.afterTail₀ cfgs (dats m) 0 (V0 m) [hostOps1] c main_v3
    = attnOut shapeCasts_S32x1024x32x32_S32x1024x1024 shapeCasts_S32x1024x1024_S32x1024x32x32
        (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v1_1)
      = attnA m c :=
    (Pipeline.withArrays_arr spec0 launch0.win.arr_inj c _ _ 4).trans (final4 m c)
  unfold Pipeline.afterTail₀
  show StableHlo.after hostOps1 _ (Proc.devRef .tc main_v3) = _
  after_results
  refine Eq.trans ?_ (congrArg (fun X => shapeCast S32x1024x32x32 X shapeCasts_S32x1024x1024_S32x1024x32x32) (hw.trans (attnA_eq m c)))
  rfl

/-- Every weakly fair execution of the program terminates with the two results at the context and the transposed
    weights of the arguments, re-laid, and the arguments unchanged. -/
theorem run : θ_run defs (onTc (τ := τ) (main (F := Ideal))) ⟨m, fun _ => 0, ρ⟩ fun r => ∀ c : Dev nD,
      r.2.mem ((c.tc : Thread nD τ).loc main_v2)
        = ctxOut shapeCasts_S32x1024x32x32_S32x1024x1024 shapeCasts_S32x1024x1024_S32x1024x32x32
            (m ((c.tc : Thread nD τ).loc main_arg0)) (m ((c.tc : Thread nD τ).loc main_arg1)) (m ((c.tc : Thread nD τ).loc main_arg2))
      ∧ r.2.mem ((c.tc : Thread nD τ).loc main_v3)
        = attnOut shapeCasts_S32x1024x32x32_S32x1024x1024 shapeCasts_S32x1024x1024_S32x1024x32x32
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (tail2 m c),
       ((h c).2 main_v3 (Pipeline.mem_restRefs_of main_v3 (by decide) (by decide))).trans (tail3 m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KernelRun

end
-- ==== Proof.RefValue.lean ====
/-
  The reference computes the attention of `Softmax.lean`: its stages, read one at a time at an index given by
  coordinates, are the score (a contraction over the feature axis), the row maximum folded from −∞ (taking the maximum
  with −∞ once more changes nothing), the exponentials, their row sum from zero, the quotient, and the context (a
  contraction over the source axis); the second result is the quotient with its last two axes exchanged.
-/
import proofs.«148764_j1580547967055_2_alg».proof.Proof.Gen.ReferenceIdeal.Read
import proofs.«148764_j1580547967055_2_alg».proof.Proof.Softmax

noncomputable section

namespace Cert.ReferenceIdeal.RefValue

open Cert.ReferenceIdeal Cert.ReferenceIdeal.Gen Cert.ReferenceIdeal.Read Cert.Attn
open Idealize.ShloMosaic Idealize.ShloMosaic.ValueIdx

variable (x0 : (⟨S32x1024x32x32, .f32⟩ : BufTy).Contents (Elt Ideal))
variable (x1 x2 : (⟨S32x1024x1024, .f32⟩ : BufTy).Contents (Elt Ideal))

/-- The score: the first contraction pairs `T[b, k, q]` with `K[b, k, s]`. -/
theorem v1_apply (b : Fin 32) (q s : Fin 1024) :
    val_main_v1 (F := Ideal) x0 x1 (ix3 b q s) = score (val_main_v0 (F := Ideal) x0) x1 b q s := by
  rw [val_main_v1_apply]
  unfold score
  refine Finset.sum_congr rfl fun k _ => ?_
  have el : lidx_main_v1 (ix3 b q s) k = ix3 b k q :=
    funext fun a => Fin.ext (by match a with | ⟨0, _⟩ => rfl | ⟨1, _⟩ => rfl | ⟨2, _⟩ => rfl)
  have er : ridx_main_v1 (ix3 b q s) k = ix3 b k s :=
    funext fun a => Fin.ext (by match a with | ⟨0, _⟩ => rfl | ⟨1, _⟩ => rfl | ⟨2, _⟩ => rfl)
  rw [el, er]

/-- The row maximum: the reduction over the source axis is the fold of `max` from −∞ over the row of scores. -/
theorem v2_apply (b : Fin 32) (q : Fin 1024) :
    val_main_v2 (F := Ideal) x0 x1 (ix2 b q) = rowMax (score (val_main_v0 (F := Ideal) x0) x1 b q) := by
  have hR : S32x1024x1024.Reduces [2] S32x1024 := by decide
  unfold val_main_v2
  refine (Host.reduce_eq_fold_single (FloatOps.maximumf (F := Ideal) (φ := .f32)) (val_main_v1 (F := Ideal) x0 x1) (val_main_cst (F := Ideal))
    reducesTo_S32x1024x1024_S32x1024_d2 hR h_S_ (ix2 b q)).trans ?_
  have hf : (val_main_v1 (F := Ideal) x0 x1 ∘ hR.lift (ix2 b q)) = score (val_main_v0 (F := Ideal) x0) x1 b q :=
    funext fun (k : Fin 1024) => by
      have e : hR.lift (ix2 b q) k = ix3 b q k :=
        funext fun a => Fin.ext (by match a with | ⟨0, _⟩ => rfl | ⟨1, _⟩ => rfl | ⟨2, _⟩ => rfl)
      show val_main_v1 (F := Ideal) x0 x1 (hR.lift (ix2 b q) k) = _
      rw [e, v1_apply]
  rw [hf]
  rfl

/-- The maximum spread back over the row, after the reference's second `max` with −∞. -/
theorem v6_apply (b : Fin 32) (q s : Fin 1024) :
    val_main_v6 (F := Ideal) x0 x1 (ix3 b q s) = rowMax (score (val_main_v0 (F := Ideal) x0) x1 b q) := by
  have e : idx_main_v5 (idx_main_v6 (ix3 b q s)) = ix2 b q :=
    funext fun a => Fin.ext (by match a with | ⟨0, _⟩ => rfl | ⟨1, _⟩ => rfl)
  rw [val_main_v6_apply, val_main_v5_apply, val_main_v4_apply, val_main_v3_apply, val_main_cst_0_apply, e, v2_apply]
  exact max_negInf_rowMax _

/-- The exponentials of the scores less the row maximum. -/
theorem v8_apply (b : Fin 32) (q s : Fin 1024) :
    val_main_v8 (F := Ideal) x0 x1 (ix3 b q s)
      = Ideal.exp (score (val_main_v0 (F := Ideal) x0) x1 b q s - rowMax (score (val_main_v0 (F := Ideal) x0) x1 b q)) := by
  rw [val_main_v8_apply, val_main_v7_apply, v1_apply, v6_apply]
  rfl

/-- Their row sum, from zero. -/
theorem v11_apply (b : Fin 32) (q s : Fin 1024) :
    val_main_v11 (F := Ideal) x0 x1 (ix3 b q s)
      = ∑ s' : Fin 1024, Ideal.exp (score (val_main_v0 (F := Ideal) x0) x1 b q s' - rowMax (score (val_main_v0 (F := Ideal) x0) x1 b q)) := by
  have e : idx_main_v10 (idx_main_v11 (ix3 b q s)) = ix2 b q :=
    funext fun a => Fin.ext (by match a with | ⟨0, _⟩ => rfl | ⟨1, _⟩ => rfl)
  rw [val_main_v11_apply, val_main_v10_apply, e, val_main_v9_apply, val_main_cst_1_apply]
  show Ideal.ofBits .f32 0x00000000#32 + _ = _
  rw [Ideal.ofBits_zero_f32, zero_add]
  refine Finset.sum_congr rfl fun k _ => ?_
  have ek : idx_main_v9 (ix2 b q) k = ix3 b q k :=
    funext fun a => Fin.ext (by match a with | ⟨0, _⟩ => rfl | ⟨1, _⟩ => rfl | ⟨2, _⟩ => rfl)
  rw [ek, v8_apply]

/-- The attention weights: the quotient is the softmax of the row of scores. -/
theorem v12_apply (b : Fin 32) (q s : Fin 1024) :
    val_main_v12 (F := Ideal) x0 x1 (ix3 b q s) = attn (val_main_v0 (F := Ideal) x0) x1 b q s := by
  rw [val_main_v12_apply, v8_apply, v11_apply]
  rfl

/-- The context array. -/
theorem v13_eq : val_main_v13 (F := Ideal) x0 x1 x2 = ctxArr (val_main_v0 (F := Ideal) x0) x1 x2 := by
  funext i
  obtain ⟨b, v, q, rfl⟩ : ∃ (b : Fin 32) (v q : Fin 1024), i = ix3 b v q := ⟨i 0, i 1, i 2, eq_ix3 i⟩
  rw [val_main_v13_apply, ctxArr_apply]
  unfold ctx
  refine Finset.sum_congr rfl fun k _ => ?_
  have el : lidx_main_v13 (ix3 b v q) k = ix3 b v k :=
    funext fun a => Fin.ext (by match a with | ⟨0, _⟩ => rfl | ⟨1, _⟩ => rfl | ⟨2, _⟩ => rfl)
  have er : ridx_main_v13 (ix3 b v q) k = ix3 b q k :=
    funext fun a => Fin.ext (by match a with | ⟨0, _⟩ => rfl | ⟨1, _⟩ => rfl | ⟨2, _⟩ => rfl)
  rw [el, er, v12_apply]

/-- The transposed attention array. -/
theorem v15_eq : val_main_v15 (F := Ideal) x0 x1 = attnTArr (val_main_v0 (F := Ideal) x0) x1 := by
  funext i
  obtain ⟨b, s, q, rfl⟩ : ∃ (b : Fin 32) (s q : Fin 1024), i = ix3 b s q := ⟨i 0, i 1, i 2, eq_ix3 i⟩
  have e : idx_main_v15 (ix3 b s q) = ix3 b q s :=
    funext fun a => Fin.ext (by match a with | ⟨0, _⟩ => rfl | ⟨1, _⟩ => rfl | ⟨2, _⟩ => rfl)
  rw [val_main_v15_apply, e, v12_apply, attnTArr_apply]

end Cert.ReferenceIdeal.RefValue

end
-- ==== Proof.lean ====
/-
  Attention with a softmax over the source axis and no scale, computed by a tiled kernel, against its array-level
  statement.

  Both programs take an input [32, 1024, 32, 32] and a key and a value array [32, 1024, 1024]. With the input's last
  two axes merged into a query axis (`T[b, d, q]`), both compute, on the extended reals,

    score b q s = ∑ d, T[b, d, q] · K[b, d, s],
    attn  b q s = exp (score b q s − M b q) / ∑ s', exp (score b q s' − M b q),   M b q = max over s' from −∞,
    ctx   b v q = ∑ s, V[b, v, s] · attn b q s,

  and return the context and the transposed weights with the query axis split back (`Proof/Softmax.lean`,
  `Proof/Outputs.lean`).

  The reference does this on whole arrays; it takes the maximum with −∞ a second time, which changes nothing
  (`Proof/RefValue.lean`). The kernel walks a 32 × 4 grid, one batch and one tile of 256 queries per point. At the
  first tile of a batch it copies that batch's keys and values into two caches (narrowing them, which on the
  extended reals is the identity) and the three later tiles reuse the caches; every point forms its 256 × 1024 block of
  scores as a product accumulated into zeros, takes the row softmax, and writes its block of the context and of the
  transposed weights (`Proof/Pieces.lean`, `Proof/Payload.lean`). By induction on the point the caches always hold the
  point's batch (`Proof/Points.lean`); the blocks sit where the index maps say (`Proof/Blocks.lean`) and tile the two
  arrays (`Proof/KernelValue.lean`), and the host lines after the region split the query axis (`Proof/KernelRun.lean`).

  No law used needs finiteness — sums are only re-indexed, never distributed over —, so the precondition is not opened.
  The three frames are the generated frame runs (the reference's is its run with the results dropped), and the
  idealization rewrote nothing, so `preserves` is `True`.
-/
import proofs.«148764_j1580547967055_2_alg».proof.Defs
import proofs.«148764_j1580547967055_2_alg».proof.Proof.Gen.Kernel
import proofs.«148764_j1580547967055_2_alg».proof.Proof.Gen.Kernel.Skeleton
import proofs.«148764_j1580547967055_2_alg».proof.Proof.Gen.Kernel.Launch
import proofs.«148764_j1580547967055_2_alg».proof.Proof.Gen.Kernel.Points
import proofs.«148764_j1580547967055_2_alg».proof.Proof.Gen.Kernel.Frame
import proofs.«148764_j1580547967055_2_alg».proof.Proof.Gen.KernelIdeal
import proofs.«148764_j1580547967055_2_alg».proof.Proof.Gen.KernelIdeal.Skeleton
import proofs.«148764_j1580547967055_2_alg».proof.Proof.Gen.KernelIdeal.Launch
import proofs.«148764_j1580547967055_2_alg».proof.Proof.Gen.KernelIdeal.Points
import proofs.«148764_j1580547967055_2_alg».proof.Proof.Gen.KernelIdeal.Frame
import proofs.«148764_j1580547967055_2_alg».proof.Proof.Gen.ReferenceIdeal
import proofs.«148764_j1580547967055_2_alg».proof.Proof.Gen.ReferenceIdeal.Run
import proofs.«148764_j1580547967055_2_alg».proof.Proof.Gen.ReferenceIdeal.Read
import proofs.«148764_j1580547967055_2_alg».proof.Proof.Gen.Pre_finite_inputs
import proofs.«148764_j1580547967055_2_alg».proof.Proof.KernelRun
import proofs.«148764_j1580547967055_2_alg».proof.Proof.RefValue
import proofs.«148764_j1580547967055_2_alg».proof.Proof.Outputs
import Idealize.ShloMosaic.Adequacy
import Idealize.ShloMosaic.Init

noncomputable section

namespace Cert.Proof

open Idealize.ShloMosaic Idealize.SL.Sem Cert.Attn

/-! ## The reference's two results are the functions of `Outputs.lean` -/

theorem ref_ctx (x0 : (⟨Cert.ReferenceIdeal.S32x1024x32x32, .f32⟩ : BufTy).Contents (Elt Ideal))
    (x1 x2 : (⟨Cert.ReferenceIdeal.S32x1024x1024, .f32⟩ : BufTy).Contents (Elt Ideal)) :
    Cert.ReferenceIdeal.Read.val_main_v14 (F := Ideal) x0 x1 x2
      = ctxOut Cert.ReferenceIdeal.Gen.shapeCasts_S32x1024x32x32_S32x1024x1024 Cert.ReferenceIdeal.Gen.shapeCasts_S32x1024x1024_S32x1024x32x32 x0 x1 x2 := by
  unfold Cert.ReferenceIdeal.Read.val_main_v14
  rw [Cert.ReferenceIdeal.RefValue.v13_eq]
  rfl

theorem ref_attn (x0 : (⟨Cert.ReferenceIdeal.S32x1024x32x32, .f32⟩ : BufTy).Contents (Elt Ideal))
    (x1 : (⟨Cert.ReferenceIdeal.S32x1024x1024, .f32⟩ : BufTy).Contents (Elt Ideal)) :
    Cert.ReferenceIdeal.Read.val_main_v16 (F := Ideal) x0 x1
      = attnOut Cert.ReferenceIdeal.Gen.shapeCasts_S32x1024x32x32_S32x1024x1024 Cert.ReferenceIdeal.Gen.shapeCasts_S32x1024x1024_S32x1024x32x32 x0 x1 := by
  unfold Cert.ReferenceIdeal.Read.val_main_v16
  rw [Cert.ReferenceIdeal.RefValue.v15_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the three arguments both programs end with the context and the transposed weights of
    those arguments. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, ref_ctx, (hagree c).1, (hagree c).2.1, (hagree c).2.2]
  · rw [Cert.ReferenceIdeal.Read.val_main_v16_eq, ref_attn, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
